-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S65536x256 .f32) (main_arg1 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S65536x256 : Shape := ⟨2, ![65536, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 7
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256x256, .f32⟩
  | .hbm, ⟨3, _⟩ => ⟨S_, .f32⟩
  | .hbm, ⟨4, _⟩ => ⟨S256, .f32⟩
  | .hbm, ⟨5, _⟩ => ⟨S1x256, .f32⟩
  | .hbm, ⟨6, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x256_S256_d1 : S256x256.ReducesTo [1] S256
  h_S_ : 0 < S_.numel
  bcast_S256_S1x256_1 : S256.BroadcastsInDim S1x256 (![1] : Fin 1 → Fin S1x256.rank)
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  bitsLt_bf16_f32 : FTy.bits .bf16 < FTy.bits .f32
  transposes_S256x256_p1_0_S256x256 : S256x256.Transposes [1, 0] S256x256
  broadcasts_S4096x1_S4096x256 : S4096x1.Broadcasts S4096x256
  broadcasts_S1x256_S4096x256 : S1x256.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S65536x256.size a
  hwx0_3 : ∀ i : grid0.Coords, EltTy.bits .f32 = 32 ∨ (Rect.block (s := S65536x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S_ : Shape := ⟨0, ![]⟩
abbrev S65536 : Shape := ⟨1, ![65536]⟩
abbrev S65536x1 : Shape := ⟨2, ![65536, 1]⟩
abbrev S256 : Shape := ⟨1, ![256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S256x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S65536x256, .f32⟩
  | .hbm, ⟨35, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S256x256_S256_d1 : S256x256.ReducesTo [1] S256
  bcast_S256_S1x256_1 : S256.BroadcastsInDim S1x256 (![1] : Fin 1 → Fin S1x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  transposes_S256x256_S256x256_1_0 : S256x256.Transposes [1, 0] S256x256
  bcast_S_S65536x256 : S_.BroadcastsInDim S65536x256 (![] : Fin 0 → Fin S65536x256.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  Soft assignment of points to cluster centres by a Student-t kernel with one degree of freedom, on the extended reals.

  For a point a and a centre b (rows of 256 entries) the squared distance is taken in its expanded form
  ‖a‖² + ‖b‖² − 2⟨a, b⟩; the weight of the centre for the point is 1 / (1 + distance² / 1); a point's weights over the 256
  centres are divided by their sum.

  Two laws are proved here. A power with exponent one is the identity on every extended real. And when every entry of
  a and b is a real number the expanded squared distance IS the sum of the squares (a d − b d)², hence is not negative,
  so taking its maximum with zero changes nothing. The second law needs the entries real: on the extended reals a
  difference of two infinities has no meaning and the expansion is not valid there.
-/
import Idealize.ShloMosaic.PureOps.Ideal
import Idealize.ShloMosaic.PureOps.Ideal.Laws
import Idealize.ShloMosaic.Lib.ValueIdx

noncomputable section

open scoped BigOperators

namespace Cert.SoftAssign

open Idealize.ShloMosaic Idealize.ShloMosaic.ValueIdx

/-! ## The three float constants -/

/-- The word of the float one denotes the real number one. -/
theorem word_one : Ideal.ofBits .f32 0x3F800000#32 = ((1 : ℝ) : EReal) := by
  simp [Ideal.ofBits, Ideal.ieee, -EReal.coe_mul]; norm_num

/-- The word of the float two denotes the real number two. -/
theorem word_two : Ideal.ofBits .f32 0x40000000#32 = ((2 : ℝ) : EReal) := by
  simp [Ideal.ofBits, Ideal.ieee, -EReal.coe_mul]; norm_num

/-! ## The function -/

/-- The squared norm of a row. -/
def sqNorm (b : Fin 256 → EReal) : EReal := ∑ d, b d * b d

/-- The squared distance from a to b in expanded form, ‖a‖² + b2 − 2⟨a, b⟩, where b2 stands for ‖b‖². -/
def expDist (a b : Fin 256 → EReal) (b2 : EReal) : EReal :=
  (sqNorm a + b2) - Ideal.ofBits .f32 0x40000000#32 * ∑ d, a d * b d

/-- The Student-t weight of a squared distance D: 1 / (1 + D / 1). -/
def weight (D : EReal) : EReal :=
  Ideal.div (Ideal.ofBits .f32 0x3F800000#32)
    (Ideal.ofBits .f32 0x3F800000#32 + Ideal.div D (Ideal.ofBits .f32 0x3F800000#32))

/-- One member of a family of 256 weights divided by the family's sum. -/
def normalise (w : Fin 256 → EReal) (k : Fin 256) : EReal := Ideal.div (w k) (∑ j, w j)

/-- Row r of an array of rows of 256 entries. -/
abbrev row {n : ℕ} (x : (⟨2, ![n, 256]⟩ : Shape).Idx → EReal) (r : Fin n) : Fin 256 → EReal := fun d => x (ix2 r d)

/-- The soft assignment of point r of x to centre k of c. -/
def assignAt (x : (⟨2, ![65536, 256]⟩ : Shape).Idx → EReal) (c : (⟨2, ![256, 256]⟩ : Shape).Idx → EReal)
    (r : Fin 65536) (k : Fin 256) : EReal :=
  normalise (fun j => weight (expDist (row x r) (row c j) (sqNorm (row c j)))) k

/-- The whole array of soft assignments. -/
def assign (x : (⟨2, ![65536, 256]⟩ : Shape).Idx → EReal) (c : (⟨2, ![256, 256]⟩ : Shape).Idx → EReal) :
    (⟨2, ![65536, 256]⟩ : Shape).Idx → EReal :=
  fun i => assignAt x c (i 0) (i 1)

theorem assign_ix2 (x : (⟨2, ![65536, 256]⟩ : Shape).Idx → EReal) (c : (⟨2, ![256, 256]⟩ : Shape).Idx → EReal)
    (r : Fin 65536) (k : Fin 256) : assign x c (ix2 r k) = assignAt x c r k := rfl

/-! ## A power with exponent one -/

/-- x to the power one is x, for every extended real x: on a real number by the real power, and each infinity is
    kept by a positive exponent. -/
theorem pow_word_one (y : EReal) : Ideal.pow y (Ideal.ofBits .f32 0x3F800000#32) = y := by
  rw [word_one]
  induction y using EReal.rec with
  | bot => rfl
  | coe r => exact congrArg (fun t : ℝ => (t : EReal)) (Real.rpow_one r)
  | top => rw [Ideal.pow_top, if_pos (EReal.coe_pos.mpr one_pos)]

/-! ## The expanded squared distance of real rows -/

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For rows of real numbers the expanded squared distance is the sum of the squared differences of the entries. -/
theorem expDist_real (a b : Fin 256 → ℝ) :
    expDist (fun d => (a d : EReal)) (fun d => (b d : EReal)) (sqNorm fun d => (b d : EReal))
      = ((∑ d, (a d - b d) * (a d - b d) : ℝ) : EReal) := by
  have h : (∑ d, a d * a d) + (∑ d, b d * b d) - 2 * (∑ d, a d * b d) = ∑ d, (a d - b d) * (a d - b d) := by
    rw [Finset.mul_sum, ← Finset.sum_add_distrib, ← Finset.sum_sub_distrib]
    exact Finset.sum_congr rfl fun d _ => by ring
  unfold expDist sqNorm
  rw [word_two, ← h]
  simp only [← EReal.coe_mul, ← coe_sum, ← EReal.coe_add, ← EReal.coe_sub]

/-- When every entry of both rows is a real number, the maximum of the expanded squared distance with zero is the
    distance itself: it is a sum of squares. -/
theorem max_expDist_zero (a b : Fin 256 → EReal) (ha : ∀ d, a d ≠ ⊤ ∧ a d ≠ ⊥) (hb : ∀ d, b d ≠ ⊤ ∧ b d ≠ ⊥) :
    max (expDist a b (sqNorm b)) (Ideal.ofBits .f32 0x00000000#32) = expDist a b (sqNorm b) := by
  lift a to Fin 256 → ℝ using ha
  lift b to Fin 256 → ℝ using hb
  rw [expDist_real, Ideal.ofBits_zero_f32]
  exact max_eq_left (EReal.coe_nonneg.mpr (Finset.sum_nonneg fun d _ => mul_self_nonneg _))

/-- So, for arrays whose entries are all real numbers, clamping every squared distance at zero before the weight is
    taken gives the same soft assignment. -/
theorem assignAt_clamped (x : (⟨2, ![65536, 256]⟩ : Shape).Idx → EReal) (c : (⟨2, ![256, 256]⟩ : Shape).Idx → EReal)
    (hx : ∀ i, x i ≠ ⊤ ∧ x i ≠ ⊥) (hc : ∀ i, c i ≠ ⊤ ∧ c i ≠ ⊥) (r : Fin 65536) (k : Fin 256) :
    normalise (fun j => weight (max (expDist (row x r) (row c j) (sqNorm (row c j))) (Ideal.ofBits .f32 0x00000000#32))) k
      = assignAt x c r k :=
  congrArg (fun w => normalise w k) (funext fun j => congrArg weight
    (max_expDist_zero (row x r) (row c j) (fun d => hx (ix2 r d)) (fun d => hc (ix2 j d))))

end Cert.SoftAssign

end
-- ==== Proof.RefValue.lean ====
/-
  The reference program computes the soft assignment.

  Its stages are read at a point r and a centre k, from the inside out: the squared norm of row r of the points and of
  row k of the centres (each a sum over the 256 entries, started from zero), the inner product of the two rows (the
  matrix product with the transposed centres), the expanded squared distance, the Student-t weight, that weight raised
  to the power one (which is the weight), the sum of a point's weights over the centres, and the quotient.
-/
import proofs.«130747_j37005438222828_2_alg».proof.Proof.Gen.ReferenceIdeal.Read
import proofs.«130747_j37005438222828_2_alg».proof.Proof.Spec

noncomputable section

open scoped BigOperators

namespace Cert.ReferenceIdeal.RefValue

open Cert.ReferenceIdeal Cert.ReferenceIdeal.Read Cert.SoftAssign
open Idealize.ShloMosaic Idealize.ShloMosaic.ValueIdx

variable (x0 : FVec Ideal S65536x256 .f32) (x1 : FVec Ideal S256x256 .f32)

/-- The squared norm of row r of the points. -/
theorem norm_points (r : Fin 65536) : val_main_v1 (F := Ideal) x0 (ix1 r) = sqNorm (row x0 r) := by
  rw [val_main_v1_apply]
  show Ideal.ofBits .f32 0x00000000#32 + ∑ d : Fin 256, x0 (idx_main_v1 (ix1 r) d) * x0 (idx_main_v1 (ix1 r) d) = _
  rw [Ideal.ofBits_zero_f32, zero_add]
  unfold sqNorm
  refine Finset.sum_congr rfl fun d _ => ?_
  rw [show idx_main_v1 (ix1 r) d = ix2 r d from
    funext fun a => Fin.ext (by match a with | ⟨0, _⟩ => rfl | ⟨1, _⟩ => rfl)]

/-- The squared norm of row k of the centres. -/
theorem norm_centres (k : Fin 256) : val_main_v4 (F := Ideal) x1 (ix1 k) = sqNorm (row x1 k) := by
  rw [val_main_v4_apply]
  show Ideal.ofBits .f32 0x00000000#32 + ∑ d : Fin 256, x1 (idx_main_v4 (ix1 k) d) * x1 (idx_main_v4 (ix1 k) d) = _
  rw [Ideal.ofBits_zero_f32, zero_add]
  unfold sqNorm
  refine Finset.sum_congr rfl fun d _ => ?_
  rw [show idx_main_v4 (ix1 k) d = ix2 k d from
    funext fun a => Fin.ext (by match a with | ⟨0, _⟩ => rfl | ⟨1, _⟩ => rfl)]

/-- Spread along the centres, the points' squared norms read at (r, k) give that of row r. -/
theorem norm_points_spread (r : Fin 65536) (k : Fin 256) :
    val_main_v6 (F := Ideal) x0 (ix2 r k) = sqNorm (row x0 r) := by
  rw [val_main_v6_apply, val_main_v2_apply,
    show idx_main_v2 (idx_main_v6 (ix2 r k)) = ix1 r from funext fun a => Fin.ext (by match a with | ⟨0, _⟩ => rfl)]
  exact norm_points x0 r

/-- Spread along the points, the centres' squared norms read at (r, k) give that of row k. -/
theorem norm_centres_spread (r : Fin 65536) (k : Fin 256) :
    val_main_v7 (F := Ideal) x1 (ix2 r k) = sqNorm (row x1 k) := by
  rw [val_main_v7_apply, val_main_v5_apply,
    show idx_main_v5 (idx_main_v7 (ix2 r k)) = ix1 k from funext fun a => Fin.ext (by match a with | ⟨0, _⟩ => rfl)]
  exact norm_centres x1 k

/-- The product of the points with the transposed centres, at (r, k), is the inner product of row r and row k. -/
theorem inner_rows (r : Fin 65536) (k : Fin 256) :
    val_main_v10 (F := Ideal) x0 x1 (ix2 r k) = ∑ d : Fin 256, row x0 r d * row x1 k d := by
  rw [val_main_v10_apply]
  refine Finset.sum_congr rfl fun d _ => ?_
  rw [val_main_v9_apply,
    show lidx_main_v10 (ix2 r k) d = ix2 r d from
      funext fun a => Fin.ext (by match a with | ⟨0, _⟩ => rfl | ⟨1, _⟩ => rfl),
    show idx_main_v9 (ridx_main_v10 (ix2 r k) d) = ix2 k d from
      funext fun a => Fin.ext (by match a with | ⟨0, _⟩ => rfl | ⟨1, _⟩ => rfl)]

/-- The weight of centre k for point r; the power with exponent one leaves it as it is. -/
theorem weight_at (r : Fin 65536) (k : Fin 256) :
    val_main_v21 (F := Ideal) x0 x1 (ix2 r k) = weight (expDist (row x0 r) (row x1 k) (sqNorm (row x1 k))) := by
  rw [val_main_v21_apply, val_main_v20_apply, val_main_cst_5_apply]
  refine (pow_word_one _).trans ?_
  rw [val_main_v19_apply, val_main_v18_apply, val_main_cst_4_apply, val_main_v17_apply, val_main_v16_apply,
    val_main_cst_3_apply, val_main_v15_apply, val_main_v14_apply, val_main_cst_2_apply, val_main_v13_apply,
    val_main_v8_apply, val_main_v12_apply, val_main_v11_apply, val_main_cst_1_apply,
    norm_points_spread, norm_centres_spread, inner_rows]
  rfl

/-- The sum of point r's weights over the centres, spread along the centres. -/
theorem weights_sum (r : Fin 65536) (k : Fin 256) :
    val_main_v24 (F := Ideal) x0 x1 (ix2 r k) = ∑ j : Fin 256, val_main_v21 (F := Ideal) x0 x1 (ix2 r j) := by
  rw [val_main_v24_apply, val_main_v23_apply,
    show idx_main_v23 (idx_main_v24 (ix2 r k)) = ix1 r from funext fun a => Fin.ext (by match a with | ⟨0, _⟩ => rfl),
    val_main_v22_apply]
  show Ideal.ofBits .f32 0x00000000#32 + ∑ j : Fin 256, val_main_v21 (F := Ideal) x0 x1 (idx_main_v22 (ix1 r) j) = _
  rw [Ideal.ofBits_zero_f32, zero_add]
  refine Finset.sum_congr rfl fun j _ => ?_
  rw [show idx_main_v22 (ix1 r) j = ix2 r j from
    funext fun a => Fin.ext (by match a with | ⟨0, _⟩ => rfl | ⟨1, _⟩ => rfl)]

/-- The reference's result is the array of soft assignments. -/
theorem result_eq : val_main_v25 (F := Ideal) x0 x1 = assign x0 x1 := by
  funext i
  obtain ⟨r, k, rfl⟩ : ∃ (r : Fin 65536) (k : Fin 256), i = ix2 r k := ⟨i 0, i 1, eq_ix2 i⟩
  rw [val_main_v25_apply, weights_sum, assign_ix2]
  simp only [weight_at]
  rfl

end Cert.ReferenceIdeal.RefValue

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Payload.lean ====
/-
  What the kernel body stores, read at row p and column q of a block of 4096 points.

  From a block of points, the centres and the row of the centres' squared norms, the body forms for every point p and
  centre q the expanded squared distance (the points' squared norms summed along a row and kept as a column; the inner
  products by one matrix product with the transposed centres, both operands narrowed first, which changes nothing on
  the extended reals), takes its maximum with zero, the Student-t weight of that, and divides by the sum of the point's
  weights along its row.
-/
import proofs.«130747_j37005438222828_2_alg».proof.Proof.Gen.KernelIdeal.Skeleton
import proofs.«130747_j37005438222828_2_alg».proof.Proof.Spec
import proofs.«130747_j37005438222828_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.SoftAssign Cert.LibKeepdims
open Idealize.ShloMosaic Idealize.ShloMosaic.ValueIdx

variable (v0 : FVec Ideal S4096x256 .f32) (v1 : FVec Ideal S256x256 .f32) (v2 : FVec Ideal S1x256 .f32)

/-! ## The pieces that are not entry by entry -/

/-- A sum along the rows of a block, kept as a column and spread back along the rows: at (p, q) the sum of row p. -/
theorem row_sum_spread (w : FVec Ideal S4096x256 .f32) (p : Fin 4096) (q : Fin 256) :
    broadcastTo S4096x256 (shapeCast S4096x1 (multiReduction .add [1] S4096 w 0x00000000#32 reduces_S4096x256_S4096 (.inl rfl) rfl)
      shapeCasts_S4096_S4096x1) broadcasts_S4096x1_S4096x256 (ix2 p q) = ∑ j : Fin 256, w (ix2 p j) :=
  (broadcastTo_a1_ab_apply _ _ p q).trans
    ((shapeCast_a_a1_apply _ _ p (0 : Fin 1)).trans (multiReduction_add_rows w _ _ _ _ p))

/-- The one row of the centres' squared norms spread along the points: at (p, q) its entry q. -/
theorem centre_norms_spread (p : Fin 4096) (q : Fin 256) :
    broadcastTo S4096x256 (shapeCast S1x256 v2 shapeCasts_S1x256_S1x256) broadcasts_S1x256_S4096x256 (ix2 p q)
      = v2 (ix2 (0 : Fin 1) q) :=
  (broadcastTo_1b_ab_apply _ _ p q).trans (congrFun (shapeCast_self v2 _) _)

/-- The contraction record of the body's matrix product: the points' second axis against the first axis of the
    transposed centres. -/
abbrev dims : DotDims S4096x256 S256x256 S4096x256 := dot_S4096x256_S256x256_S4096x256_1_0_0_1_n_n

theorem lhs_axis0 (i : S4096x256.Idx) (κ : dims.contr.Idx) : (dims.lhsIdx i κ 0).val = (i 0).val := by
  unfold DotDims.lhsIdx
  rw [dif_neg (show ¬(0 : Fin S4096x256.rank) ∈ dims.lhsBatch by decide),
    dif_pos (show (0 : Fin S4096x256.rank) ∈ dims.lhsNonContracting by decide)]
  rfl

theorem rhs_axis1 (i : S4096x256.Idx) (κ : dims.contr.Idx) : (dims.rhsIdx i κ 1).val = (i 1).val := by
  unfold DotDims.rhsIdx
  rw [dif_neg (show ¬(1 : Fin S256x256.rank) ∈ dims.rhsBatch by decide),
    dif_pos (show (1 : Fin S256x256.rank) ∈ dims.rhsNonContracting by decide)]
  rfl

/-- The matrix product of the block with the transposed centres, into zero: at (p, q) the inner product of point p
    and centre q. -/
theorem inner_block (p : Fin 4096) (q : Fin 256) :
    matmul dot_S4096x256_S256x256_S4096x256_1_0_0_1_n_n none (truncf .bf16 v0 bitsLt_bf16_f32)
      (transpose S256x256 [1, 0] (truncf .bf16 v1 bitsLt_bf16_f32) transposes_S256x256_p1_0_S256x256)
      (constant S4096x256 .f32 0x00000000#32) (ix2 p q) = ∑ d : Fin 256, row v0 p d * row v1 q d := by
  refine (Ideal.matmul_constant_zero_apply dims none _ _ (ix2 p q)).trans ?_
  rw [← Equiv.sum_comp (ValueIdx.contrEquiv1 dims 256 rfl rfl).symm]
  refine Finset.sum_congr rfl fun d _ => ?_
  have hd := ValueIdx.contrEquiv1_symm_val dims 256 rfl rfl d
  have el : dims.lhsIdx (ix2 p q) ((ValueIdx.contrEquiv1 dims 256 rfl rfl).symm d) = ix2 p d :=
    funext fun a => Fin.ext (by
      match a with
      | ⟨0, _⟩ => exact lhs_axis0 _ _
      | ⟨1, _⟩ => exact (dims.lhsIdx_val_of_single rfl _ _).trans hd)
  have er : dims.rhsIdx (ix2 p q) ((ValueIdx.contrEquiv1 dims 256 rfl rfl).symm d) = ix2 d q :=
    funext fun a => Fin.ext (by
      match a with
      | ⟨0, _⟩ => exact (dims.rhsIdx_val_of_single rfl _ _).trans hd
      | ⟨1, _⟩ => exact rhs_axis1 _ _)
  rw [el, er, transpose_ix2_apply]
  rfl

/-! ## The body's result -/

/-- The weights before they are divided by their row sums. -/
def rawWeights : FVec Ideal S4096x256 .f32 :=
  divf (broadcast S4096x256 (Scalar.ofBits .f32 0x3F800000#32))
    (addf (broadcast S4096x256 (Scalar.ofBits .f32 0x3F800000#32))
      (divf
        (maximumf
          (subf
            (addf
              (broadcastTo S4096x256 (shapeCast S4096x1 (multiReduction .add [1] S4096 (mulf v0 v0) 0x00000000#32
                reduces_S4096x256_S4096 (.inl rfl) rfl) shapeCasts_S4096_S4096x1) broadcasts_S4096x1_S4096x256)
              (broadcastTo S4096x256 (shapeCast S1x256 v2 shapeCasts_S1x256_S1x256) broadcasts_S1x256_S4096x256))
            (mulf (broadcast S4096x256 (Scalar.ofBits .f32 0x40000000#32))
              (matmul dot_S4096x256_S256x256_S4096x256_1_0_0_1_n_n none (truncf .bf16 v0 bitsLt_bf16_f32)
                (transpose S256x256 [1, 0] (truncf .bf16 v1 bitsLt_bf16_f32) transposes_S256x256_p1_0_S256x256)
                (constant S4096x256 .f32 0x00000000#32))))
          (broadcast S4096x256 (Scalar.ofBits .f32 0x00000000#32)))
        (broadcast S4096x256 (Scalar.ofBits .f32 0x3F800000#32))))

/-- The stored value is the raw weights over their row sums. -/
theorem payload_eq : k0_pay1 v0 v1 v2 = divf (rawWeights v0 v1 v2)
    (broadcastTo S4096x256 (shapeCast S4096x1 (multiReduction .add [1] S4096 (rawWeights v0 v1 v2) 0x00000000#32
      reduces_S4096x256_S4096 (.inl rfl) rfl) shapeCasts_S4096_S4096x1) broadcasts_S4096x1_S4096x256) := rfl

/-- The clamped weight as a function of the three numbers it is made of: the point's squared norm, the centre's, and
    their inner product. -/
def clampedWeight (a2 b2 ab : EReal) : EReal :=
  Ideal.div (Ideal.ofBits .f32 0x3F800000#32)
    (Ideal.ofBits .f32 0x3F800000#32
      + Ideal.div (max ((a2 + b2) - Ideal.ofBits .f32 0x40000000#32 * ab) (Ideal.ofBits .f32 0x00000000#32))
          (Ideal.ofBits .f32 0x3F800000#32))

/-- The raw weight at (p, q): the Student-t weight of the squared distance of point p to centre q, clamped at zero. -/
theorem rawWeights_apply (p : Fin 4096) (q : Fin 256) :
    rawWeights v0 v1 v2 (ix2 p q)
      = weight (max (expDist (row v0 p) (row v1 q) (v2 (ix2 (0 : Fin 1) q))) (Ideal.ofBits .f32 0x00000000#32)) :=
  congr (congr (congrArg clampedWeight (row_sum_spread (mulf v0 v0) p q)) (centre_norms_spread v2 p q))
    (inner_block v0 v1 p q)

/-- The stored value at (p, q). -/
theorem payload_apply (p : Fin 4096) (q : Fin 256) :
    k0_pay1 (F := Ideal) v0 v1 v2 (ix2 p q)
      = normalise (fun j => weight (max (expDist (row v0 p) (row v1 j) (v2 (ix2 (0 : Fin 1) j)))
          (Ideal.ofBits .f32 0x00000000#32))) q :=
  (congrFun (payload_eq v0 v1 v2) (ix2 p q)).trans
    ((congrArg (Ideal.div (rawWeights v0 v1 v2 (ix2 p q))) (row_sum_spread (rawWeights v0 v1 v2) p q)).trans (by
      simp only [rawWeights_apply]
      rfl))

end Cert.KernelIdeal.Body

end
-- ==== Proof.Blocks.lean ====
/-
  From what each grid point writes to the whole result array of the kernel.

  The grid has 16 points. Point t works on rows 4096 t … 4096 t + 4095 of the points and writes the same rows of the
  result; the centres and the row of their squared norms are the same block at every point. So the rows written by
  the 16 points are disjoint and together are all 65536 rows, and the result array is one function of the three arrays
  the region finds: row r, column k holds the normalised clamped weight of centre k for point r.

  The row of the centres' squared norms is computed before the region from the centres (squares summed along each row,
  from zero). With it, and when every entry of the points and of the centres is a real number so that the clamp at
  zero does nothing, the result array is the array of soft assignments.
-/
import proofs.«130747_j37005438222828_2_alg».proof.Proof.Gen.KernelIdeal.Value
import proofs.«130747_j37005438222828_2_alg».proof.Proof.Payload
import proofs.«130747_j37005438222828_2_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.Blocks

open Cert.KernelIdeal Cert.KernelIdeal.Gen Cert.SoftAssign
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The result as one function of the arrays the region finds -/

/-- Row r, column k: the weight of centre k for point r, its squared distance clamped at zero, over the sum of
    point r's weights; c2 is the row of the centres' squared norms. -/
def clampedAssign (x : S65536x256.Idx → EReal) (c : S256x256.Idx → EReal) (c2 : S1x256.Idx → EReal) :
    S65536x256.Idx → EReal :=
  fun i => normalise (fun j => weight (max (expDist (row x (i 0)) (row c j) (c2 (ix2 (0 : Fin 1) j)))
    (Ideal.ofBits .f32 0x00000000#32))) (i 1)

/-- Every entry of an array of extended reals is a real number. -/
def AllReal {s : Shape} (x : s.Idx → EReal) : Prop := ∀ i, x i ≠ ⊤ ∧ x i ≠ ⊥

theorem hz : (![0, 0] : Fin 2 → Nat) = fun _ => 0 := funext fun a => by fin_cases a <;> rfl

/-- The block index maps over the 16 points: the points' and the result's blocks are block t along the rows; the
    centres and their norms are block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block of point t is row 4096 t + p of the array. -/
def blockRow (t : Fin cfg0.N) (p : Fin 4096) : Fin 65536 :=
  ⟨t.val * 4096 + p.val, by
    have ht : t.val < 16 := lt_of_lt_of_eq t.isLt N_0
    have hp := p.isLt
    omega⟩

theorem emb_points (t : Fin cfg0.N) (p : Fin 4096) (d : Fin 256) :
    ((cfg0.win 0).blk t).view.emb (ix2 p d) = ix2 (blockRow t p) d := by
  obtain ⟨e0, e1, -⟩ := index_facts t
  funext a; apply Fin.ext
  match a with
  | ⟨0, _⟩ => show win0_0.index t (0 : Fin 2) * 4096 + 1 * p.val = t.val * 4096 + p.val; omega
  | ⟨1, _⟩ => show win0_0.index t (1 : Fin 2) * 256 + 1 * d.val = d.val; omega

theorem emb_centres (t : Fin cfg0.N) (j : Fin 256) (d : Fin 256) :
    ((cfg0.win 1).blk t).view.emb (ix2 j d) = ix2 j d := by
  obtain ⟨-, -, e2, e3, -⟩ := index_facts t
  funext a; apply Fin.ext
  match a with
  | ⟨0, _⟩ => show win0_1.index t (0 : Fin 2) * 256 + 1 * j.val = j.val; omega
  | ⟨1, _⟩ => show win0_1.index t (1 : Fin 2) * 256 + 1 * d.val = d.val; omega

theorem emb_norms (t : Fin cfg0.N) (j : Fin 256) :
    ((cfg0.win 2).blk t).view.emb (ix2 (0 : Fin 1) j) = ix2 (0 : Fin 1) j := by
  obtain ⟨-, -, -, -, e4, e5, -⟩ := index_facts t
  funext a; apply Fin.ext
  match a with
  | ⟨0, _⟩ => show win0_2.index t (0 : Fin 2) * 1 + 1 * 0 = 0; omega
  | ⟨1, _⟩ => show win0_2.index t (1 : Fin 2) * 256 + 1 * j.val = j.val; omega

theorem emb_result (t : Fin cfg0.N) (p : Fin 4096) (q : Fin 256) :
    ((cfg0.win 3).blk t).view.emb (ix2 p q) = ix2 (blockRow t p) q := by
  obtain ⟨-, -, -, -, -, -, e6, e7⟩ := index_facts t
  funext a; apply Fin.ext
  match a with
  | ⟨0, _⟩ => show win0_3.index t (0 : Fin 2) * 4096 + 1 * p.val = t.val * 4096 + p.val; omega
  | ⟨1, _⟩ => show win0_3.index t (1 : Fin 2) * 256 + 1 * q.val = q.val; omega

/-- The points' block at point t, read at (p, d): the array the region finds at row 4096 t + p. -/
theorem iblk_points (c : Dev nD) (t : Fin cfg0.N) (p : Fin 4096) (d : Fin 256) :
    iblk m c 0 t (ix2 p d) = V m c main_arg0 (ix2 (blockRow t p) d) := by
  show V m c main_arg0 (((cfg0.win 0).blk t).view.emb (ix2 p d)) = _
  rw [emb_points]

/-- The centres' block is the centres. -/
theorem iblk_centres (c : Dev nD) (t : Fin cfg0.N) (j : Fin 256) (d : Fin 256) :
    iblk m c 1 t (ix2 j d) = V m c main_arg1 (ix2 j d) := by
  show V m c main_arg1 (((cfg0.win 1).blk t).view.emb (ix2 j d)) = _
  rw [emb_centres]

/-- The block of the centres' squared norms is that row. -/
theorem iblk_norms (c : Dev nD) (t : Fin cfg0.N) (j : Fin 256) :
    iblk m c 2 t (ix2 (0 : Fin 1) j) = V m c main_v2 (ix2 (0 : Fin 1) j) := by
  show V m c main_v2 (((cfg0.win 2).blk t).view.emb (ix2 (0 : Fin 1) j)) = _
  rw [emb_norms]

/-- What point t writes back is block t of the one function. -/
theorem flushed_eq (c : Dev nD) (t : Fin cfg0.N) :
    (dats m 0 c).flushed 3 t = ((cfg0.win 3).blk t).view.read (Elt Ideal)
      (clampedAssign (V m c main_arg0) (V m c main_arg1) (V m c main_v2)) := by
  rw [Value.flushed3]
  unfold out0_3
  rw [View.canon_unit_zero hz]
  simp only [View.ld_unit_zero (S := S4096x256) hz, View.ld_unit_zero (S := S256x256) hz,
    View.ld_unit_zero (S := S1x256) hz]
  refine funext fun (y : S4096x256.Idx) => ?_
  obtain ⟨p, q, rfl⟩ : ∃ (p : Fin 4096) (q : Fin 256), y = ix2 p q := ⟨y 0, y 1, eq_ix2 y⟩
  show k0_pay1 (F := Ideal) (iblk m c 0 t) (iblk m c 1 t) (iblk m c 2 t) (ix2 p q)
    = clampedAssign (V m c main_arg0) (V m c main_arg1) (V m c main_v2) (((cfg0.win 3).blk t).view.emb (ix2 p q))
  refine (Body.payload_apply (iblk m c 0 t) (iblk m c 1 t) (iblk m c 2 t) p q).trans ?_
  rw [emb_result]
  exact congrArg (fun w => normalise w q) (funext fun j => congrArg
    (fun D => weight (max D (Ideal.ofBits .f32 0x00000000#32)))
    (congr (congr (congrArg expDist (funext fun d => iblk_points m c t p d))
      (funext fun d => iblk_centres m c t j d)) (iblk_norms m c t j)))

/-- An index of the result array is in point t's block iff each coordinate is in the block's range on its axis. -/
theorem mem_block (t : Fin cfg0.N) (i : S65536x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v3).slice (win0_3.rect t)).set ↔ _
  rw [View.set_slice_whole, Rect.mem_set_unit]
  exact Iff.rfl

/-- Every index of the result array is in the block of the point that its row divided by 4096 names. -/
theorem cover (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 256 ≤ (i 1).val ∧ (i 1).val < win0_3.index t (1 : Fin 2) * 256 + 256
    omega

/-- The result array after the run. -/
theorem final (c : Dev nD) :
    (dats m 0 c).arrAt 3 cfg0.N = clampedAssign (V m c main_arg0) (V m c main_arg1) (V m c main_v2) :=
  (dats m 0 c).arrAt_eq_of_cover 3 _ (fun t _ => flushed_eq m c t) cover

/-! ## The centres' squared norms, computed before the region -/

/-- The row the region finds: the centres' squares summed along each row from zero, as a row of 256. -/
theorem norms_found (c : Dev nD) :
    (V m c main_v2 : S1x256.Idx → EReal) = broadcastInDim S1x256 ![1] bcast_S256_S1x256_1
      (Host.reduceAdd (F := Ideal)
        (mulf (m ((c : Thread nD τ).loc main_arg1)) (m ((c : Thread nD τ).loc main_arg1)))
        (constant (F := Ideal) S_ .f32 0x00000000#32) reducesTo_S256x256_S256_d1 h_S_) := by
  dsimp only [Gen.V, Gen.hostOps0]; after_results

/-- Its entry j is the squared norm of centre j. -/
theorem norms_entry (x1 : FVec Ideal S256x256 .f32) (j : Fin 256) :
    broadcastInDim S1x256 ![1] bcast_S256_S1x256_1
      (Host.reduceAdd (F := Ideal) (mulf x1 x1) (constant (F := Ideal) S_ .f32 0x00000000#32)
        reducesTo_S256x256_S256_d1 h_S_) (ix2 (0 : Fin 1) j) = sqNorm (row x1 j) := by
  refine (broadcastInDim_apply _ bcast_S256_S1x256_1 _ (ix2 (0 : Fin 1) j) (ix1 j) (fun a => match a with
    | ⟨0, _⟩ => by show j.val = if (256 : Nat) = 1 then 0 else j.val; rw [if_neg (by decide)])).trans ?_
  simp only [Host.reduceAdd, Ideal.hostReduceAdd_def]
  rw [Ideal.hostReduceAdd_single reducesTo_S256x256_S256_d1 (by decide)]
  show Ideal.ofBits .f32 0x00000000#32 + ∑ d : Fin 256, _ = _
  rw [Ideal.ofBits_zero_f32, zero_add]
  unfold sqNorm
  refine Finset.sum_congr rfl fun d _ => ?_
  exact congrArg (mulf x1 x1) (funext fun a => Fin.ext (by match a with | ⟨0, _⟩ => rfl | ⟨1, _⟩ => rfl))

/-! ## The kernel's result is the soft assignment -/

/-- When every entry of the points and of the centres is a real number, the result array is the array of soft
    assignments of the two argument arrays. -/
theorem result_eq (c : Dev nD)
    (hx : AllReal (s := S65536x256) (m ((c : Thread nD τ).loc main_arg0)))
    (hc : AllReal (s := S256x256) (m ((c : Thread nD τ).loc main_arg1))) :
    (dats m 0 c).arrAt 3 cfg0.N
      = assign (m ((c : Thread nD τ).loc main_arg0)) (m ((c : Thread nD τ).loc main_arg1)) := by
  rw [final, V_main_arg0, V_main_arg1, norms_found]
  funext i
  obtain ⟨r, k, rfl⟩ : ∃ (r : Fin 65536) (k : Fin 256), i = ix2 r k := ⟨i 0, i 1, eq_ix2 i⟩
  rw [assign_ix2]
  refine Eq.trans ?_ (assignAt_clamped _ _ hx hc r k)
  exact congrArg (fun w => normalise w k) (funext fun j => congrArg
    (fun b2 => weight (max (expDist (row _ r) (row _ j) b2) (Ideal.ofBits .f32 0x00000000#32))) (norms_entry _ j))

/-- The kernel's run: every weakly fair execution ends with the result array at the soft assignments of the
    argument arrays, which are unchanged. -/
theorem run
    (hx : ∀ c : Dev nD, AllReal (s := S65536x256) (m ((c : Thread nD τ).loc main_arg0)))
    (hc : ∀ c : Dev nD, AllReal (s := S256x256) (m ((c : Thread nD τ).loc main_arg1))) :
    θ_run defs (onTc (τ := τ) (main (F := Ideal))) ⟨m, fun _ => 0, ρ⟩ fun r => ∀ c : Dev nD,
      r.2.mem ((c : Thread nD τ).loc main_v3)
        = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c (hx c) (hc c)), (h c).2⟩)
    (Value.run_blocks m ρ)

end Cert.KernelIdeal.Blocks

end
-- ==== Proof.Finite.lean ====
/-
  The precondition says that every entry of both input arrays is a real number.

  It is the conjunction of two tests, one per array: that the absolute value of every entry is below plus infinity.
  On the extended reals the absolute value of x is the larger of x and −x, which is plus infinity exactly when x is one
  of the two infinities; so the test holds at an entry exactly when the entry is neither.
-/
import proofs.«130747_j37005438222828_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

variable [Facts]

/-- The word of plus infinity denotes the top of the extended reals. -/
theorem word_inf : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) :
    x ≠ ⊤ ∧ x ≠ ⊥ := by
  rw [word_inf] at h
  induction x using EReal.rec with
  | bot => simp [Ideal.cmp] at h
  | coe r => exact ⟨EReal.coe_ne_top r, EReal.coe_ne_bot r⟩
  | top => simp [Ideal.cmp] at h

/-- The scalar shape has one index. -/
instance : Subsingleton S_.Idx := ⟨fun a b => funext fun d => d.elim0⟩

/-- If the precondition's function is all ones at two arrays, every entry of each is a real number. -/
theorem real_entries (x : FVec Ideal S65536x256 .f32) (c : FVec Ideal S256x256 .f32)
    (h : fn (F := Ideal) x c = fun _ => 1#1) :
    (∀ i, x i ≠ ⊤ ∧ x i ≠ ⊥) ∧ (∀ i, c i ≠ ⊤ ∧ c i ≠ ⊥) := by
  have h0 := congrFun h ValueIdx.ix0
  dsimp only [fn] at h0
  obtain ⟨hx, hc⟩ := IntOp.andi_eq_one.mp h0
  exact ⟨fun i => real_of_abs_lt _ (Host.reduce_andi_all _ _ _ _ _ hx i),
    fun i => real_of_abs_lt _ (Host.reduce_andi_all _ _ _ _ _ hc i)⟩

end Cert.Pre_finite_inputs.Finite

end
-- ==== Proof.lean ====
/-
  A kernel that softly assigns 65536 points to 256 cluster centres, against its reference.

  Both programs compute, for point r and centre k, the Student-t weight 1 / (1 + D / 1) of the squared distance D taken
  in expanded form ‖x r‖² + ‖c k‖² − 2⟨x r, c k⟩, and divide it by the sum of point r's weights over the centres. The
  kernel works on 16 blocks of 4096 points, with the centres' squared norms computed once beforehand, and narrows both
  operands of its matrix product; on the extended reals none of that changes a value. Two things do differ in the text.
  The kernel takes the maximum of D with zero; the reference does not. The reference raises each weight to the power
  one; the kernel does not. The power one is the identity on every extended real. The maximum with zero is the identity
  because, every input entry being a real number (the precondition), D is the sum over the 256 entries of
  (x r d − c k d)², which is not negative. So both result arrays are the same function of the arguments.

  The three runs terminate without a fault and leave the arguments as they were: for the two kernel programs by the
  generated frame, for the reference by its generated run. The idealized kernel is the kernel's own text read on the
  extended reals, so nothing is owed for it.
-/
import proofs.«130747_j37005438222828_2_alg».proof.Defs
import proofs.«130747_j37005438222828_2_alg».proof.Proof.Gen.Kernel
import proofs.«130747_j37005438222828_2_alg».proof.Proof.Gen.Kernel.Skeleton
import proofs.«130747_j37005438222828_2_alg».proof.Proof.Gen.Kernel.Launch
import proofs.«130747_j37005438222828_2_alg».proof.Proof.Gen.Kernel.Points
import proofs.«130747_j37005438222828_2_alg».proof.Proof.Gen.Kernel.Frame
import proofs.«130747_j37005438222828_2_alg».proof.Proof.Gen.KernelIdeal
import proofs.«130747_j37005438222828_2_alg».proof.Proof.Gen.KernelIdeal.Skeleton
import proofs.«130747_j37005438222828_2_alg».proof.Proof.Gen.KernelIdeal.Launch
import proofs.«130747_j37005438222828_2_alg».proof.Proof.Gen.KernelIdeal.Points
import proofs.«130747_j37005438222828_2_alg».proof.Proof.Gen.KernelIdeal.Frame
import proofs.«130747_j37005438222828_2_alg».proof.Proof.Gen.ReferenceIdeal
import proofs.«130747_j37005438222828_2_alg».proof.Proof.Gen.KernelIdeal.Value
import proofs.«130747_j37005438222828_2_alg».proof.Proof.Gen.ReferenceIdeal.Run
import proofs.«130747_j37005438222828_2_alg».proof.Proof.Gen.ReferenceIdeal.Read
import proofs.«130747_j37005438222828_2_alg».proof.Proof.Gen.Pre_finite_inputs
import proofs.«130747_j37005438222828_2_alg».proof.Proof.Spec
import proofs.«130747_j37005438222828_2_alg».proof.Proof.RefValue
import proofs.«130747_j37005438222828_2_alg».proof.Proof.Blocks
import proofs.«130747_j37005438222828_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel (hKernel := Cert.Kernel.Gen.facts)
    (hPre_finite_inputs := Cert.Pre_finite_inputs.Gen.facts) :=
  fun m ρ _ => Cert.Kernel.Gen.frame m ρ

/-- So does the kernel read on the extended reals. -/
theorem frame_ideal : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From arguments that agree and are real numbers throughout, both programs end with the array of soft
    assignments of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.Pre_finite_inputs.Finite.real_entries _ _ (hpre c)
  refine ⟨_, Cert.KernelIdeal.Blocks.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
